-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S4096x4096 32) (main_arg2 : IVec S4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S4096x256 : Shape := ⟨2, ![4096, 256]⟩
abbrev S1x256 : Shape := ⟨2, ![1, 256]⟩
abbrev S256x256 : Shape := ⟨2, ![256, 256]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .i32⟩
  | .hbm, ⟨3, _⟩ => ⟨S1x4096, .i32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .i32⟩
  | .local _ .vmem, ⟨3, _⟩ => ⟨S4096x256, .i32⟩
  | .local _ .vmem, ⟨4, _⟩ => ⟨S1x256, .i32⟩
  | .local _ .vmem, ⟨5, _⟩ => ⟨S1x256, .i32⟩
  | .local _ .vmem, ⟨6, _⟩ => ⟨S256x256, .f32⟩
  | .local _ .vmem, ⟨7, _⟩ => ⟨S256x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .i32 = 32 ∨ (Rect.block (s := S4096x4096) S4096x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .i32 = 32 ∨ (Rect.block (s := S1x4096) S1x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S8192x4096.size a
  hwx0_3 : ∀ i : grid0.Coords, EltTy.bits .f32 = 32 ∨ (Rect.block (s := S8192x4096) S256x256.size (cc0_transform_3 i) (hinb0_3 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .i32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Dequant.lean ====
/-
  The function both programs compute, on the extended reals.

  A quantized weight or bias word `q` stands for the number `(q - 128) * s`, with `q` read as a signed integer, `128`
  the zero point and `s` the scale (the weights' scale is the binary32 value nearest 0.02, the bias's the one nearest
  0.01; both are kept as their bit patterns and never evaluated). The layer is the affine map

      out[r, c] = (∑ k, x[r, k] * ((w[k, c] - 128) * s_w)) + (b[c] - 128) * s_b .

  Stated over literal shapes, with every index built from its coordinates.
-/
import Idealize.ShloMosaic.PureOps.Ideal
import Idealize.ShloMosaic.Lib.ValueIdx

noncomputable section

open scoped BigOperators

namespace Cert.Dequant

open Idealize.ShloMosaic Idealize.ShloMosaic.ValueIdx

/-- The number a quantized word `q` stands for at scale pattern `s`: `(q - 128) * s`. -/
def deq (s : BitVec 32) (q : BitVec 32) : EReal :=
  ((FloatOps.sitofp (F := Ideal) .f32 q : EReal) - Ideal.ofBits .f32 0x43000000#32) * Ideal.ofBits .f32 s

/-- The dequantized affine layer: row `r` of `x` against column `c` of the dequantized weights, plus the dequantized
    bias at `c`. -/
def qlinear (x : (⟨2, ![8192, 4096]⟩ : Shape).Idx → EReal) (w : (⟨2, ![4096, 4096]⟩ : Shape).Idx → BitVec 32)
    (b : (⟨1, ![4096]⟩ : Shape).Idx → BitVec 32) : (⟨2, ![8192, 4096]⟩ : Shape).Idx → EReal :=
  fun i => (∑ k : Fin 4096, x (ix2 (i 0) k) * deq 0x3CA3D70A#32 (w (ix2 k (i 1)))) + deq 0x3C23D70A#32 (b (ix1 (i 1)))

/-- The same at coordinates. -/
theorem qlinear_ix2 (x : (⟨2, ![8192, 4096]⟩ : Shape).Idx → EReal) (w : (⟨2, ![4096, 4096]⟩ : Shape).Idx → BitVec 32)
    (b : (⟨1, ![4096]⟩ : Shape).Idx → BitVec 32) (r : Fin 8192) (c : Fin 4096) :
    qlinear x w b (ix2 r c) = (∑ k : Fin 4096, x (ix2 r k) * deq 0x3CA3D70A#32 (w (ix2 k c))) + deq 0x3C23D70A#32 (b (ix1 c)) := rfl

end Cert.Dequant

end
-- ==== Proof.RefValue.lean ====
/-
  The reference computes the dequantized affine layer.

  Its last stage is a sum of two terms. The first is a whole-array matrix product whose right operand, read at
  `(k, c)`, is `s_w * (w[k, c] - 128)`: the dequantized weight with the two factors in the other order. The second
  is the vector `s_b * (b[c] - 128)` laid along every row. Commutativity of the product on the extended reals — which
  holds at the infinities too — turns both into the specification's form; nothing else is used.
-/
import proofs.«139779_j43430709297290_1_alg».proof.Proof.Gen.ReferenceIdeal.Read
import proofs.«139779_j43430709297290_1_alg».proof.Proof.Dequant

noncomputable section

open scoped BigOperators

namespace Cert.ReferenceIdeal.RefValue

open Cert.ReferenceIdeal Cert.ReferenceIdeal.Read Cert.Dequant Idealize.ShloMosaic Idealize.ShloMosaic.ValueIdx

/-- The product's left operand is read at the output's row, column `k`. -/
theorem lidx_eq (r : Fin 8192) (c k : Fin 4096) : lidx_main_v10 (ix2 r c) k = ix2 r k :=
  funext fun a => Fin.ext (by match a with | ⟨0, _⟩ => rfl | ⟨1, _⟩ => rfl)

/-- Its right operand at row `k`, the output's column. -/
theorem ridx_eq (r : Fin 8192) (c k : Fin 4096) : ridx_main_v10 (ix2 r c) k = ix2 k c :=
  funext fun a => Fin.ext (by match a with | ⟨0, _⟩ => rfl | ⟨1, _⟩ => rfl)

/-- The bias laid along the rows is read, at `(r, c)`, at the column `c`. -/
theorem bidx_eq (r : Fin 8192) (c : Fin 4096) : idx_main_v11 (idx_main_v12 (ix2 r c)) = ix1 c :=
  funext fun a => Fin.ext (by match a with | ⟨0, _⟩ => rfl)

/-- The product's right operand at an index is the dequantized weight there. -/
theorem weight_apply (w : IVec S4096x4096 32) (j : S4096x4096.Idx) :
    val_main_v4 (F := Ideal) w j = deq 0x3CA3D70A#32 (w j) := by
  rw [val_main_v4_apply, val_main_v3_apply, val_main_cst_0_apply, val_main_v2_apply, val_main_v0_apply,
    val_main_v1_apply, val_main_cst_apply]
  exact mul_comm _ _

/-- The bias vector at an index is the dequantized bias there. -/
theorem bias_apply (b : IVec S4096 32) (j : S4096.Idx) :
    val_main_v9 (F := Ideal) b j = deq 0x3C23D70A#32 (b j) := by
  rw [val_main_v9_apply, val_main_v8_apply, val_main_cst_2_apply, val_main_v7_apply, val_main_v5_apply,
    val_main_v6_apply, val_main_cst_1_apply]
  exact mul_comm _ _

/-- The reference's result, as a function of the three arguments, is the dequantized affine layer. -/
theorem ref_eq (x : FVec Ideal S8192x4096 .f32) (w : IVec S4096x4096 32) (b : IVec S4096 32) :
    val_main_v13 (F := Ideal) x w b = qlinear x w b := by
  funext i
  obtain ⟨r, c, rfl⟩ : ∃ (r : Fin 8192) (c : Fin 4096), i = ix2 r c := ⟨i 0, i 1, eq_ix2 i⟩
  rw [qlinear_ix2, val_main_v13_apply, val_main_v10_apply, val_main_v12_apply, val_main_v11_apply, bidx_eq, bias_apply]
  show (∑ k : Fin 4096, x (lidx_main_v10 (ix2 r c) k) * val_main_v4 (F := Ideal) w (ridx_main_v10 (ix2 r c) k)) + _ = _
  congr 1
  refine Finset.sum_congr rfl fun k _ => ?_
  rw [lidx_eq, ridx_eq, weight_apply]

end Cert.ReferenceIdeal.RefValue

end
-- ==== Proof.BodyValue.lean ====
/-
  What the kernel body stores, read at one index of its output block.

  At a grid point the body holds a block of 256 rows of `x` (all 4096 columns), a block of 256 columns of the weight
  words (all 4096 rows) and the 256 matching bias words as one row. It dequantizes the weight block elementwise,
  multiplies the two blocks as matrices into a zero accumulator and adds the dequantized bias row to every row of the
  product. On the extended reals the changes of float format are the identity and the accumulator contributes
  `0 + _`, so the stored value at `(p, q)` is

      (∑ k, x0[p, k] * ((x1[k, q] - 128) * s_w)) + (x2[0, q] - 128) * s_b .
-/
import proofs.«139779_j43430709297290_1_alg».proof.Proof.Gen.KernelIdeal.Skeleton
import proofs.«139779_j43430709297290_1_alg».proof.Proof.Dequant
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Cert.Dequant Idealize.ShloMosaic Idealize.ShloMosaic.ValueIdx

/-- The body's matrix product contracts the left block's columns against the right block's rows. -/
abbrev dd : DotDims S256x4096 S4096x256 S256x256 := dot_S256x4096_S4096x256_S256x256_1_0_0_1_n_n

/-- The left operand's row is the output's row; -/
theorem lhs_row (i : S256x256.Idx) (q : dd.contr.Idx) : (dd.lhsIdx i q 0).val = (i 0).val := by
  unfold DotDims.lhsIdx
  rw [dif_neg (show ¬(0 : Fin S256x4096.rank) ∈ dd.lhsBatch by decide),
    dif_pos (show (0 : Fin S256x4096.rank) ∈ dd.lhsNonContracting by decide)]
  rfl
/-- its column is the contraction index. -/
theorem lhs_col (i : S256x256.Idx) (q : dd.contr.Idx) : (dd.lhsIdx i q 1).val = (q ⟨0, by decide⟩).val :=
  dd.lhsIdx_val_of_single rfl i q
/-- The right operand's row is the contraction index; -/
theorem rhs_row (i : S256x256.Idx) (q : dd.contr.Idx) : (dd.rhsIdx i q 0).val = (q ⟨0, by decide⟩).val :=
  dd.rhsIdx_val_of_single rfl i q
/-- its column is the output's column. -/
theorem rhs_col (i : S256x256.Idx) (q : dd.contr.Idx) : (dd.rhsIdx i q 1).val = (i 1).val := by
  unfold DotDims.rhsIdx
  rw [dif_neg (show ¬(1 : Fin S4096x256.rank) ∈ dd.rhsBatch by decide),
    dif_pos (show (1 : Fin S4096x256.rank) ∈ dd.rhsNonContracting by decide)]
  rfl

/-- The matrix product into a zero accumulator, at `(p, q)`, is the sum over `k` of row `p` times column `q`. -/
theorem matmul_at (l : FVec Ideal S256x4096 .bf16) (r : FVec Ideal S4096x256 .bf16) (p q : Fin 256) :
    matmul dd none l r (constant (F := Ideal) S256x256 .f32 0x00000000#32) (ix2 p q)
      = ∑ k : Fin 4096, l (ix2 p k) * r (ix2 k q) := by
  show FloatOps.matmul dd none l r (constant (F := Ideal) S256x256 .f32 0x00000000#32) (ix2 p q) = _
  rw [Ideal.matmul_constant_zero_apply, ← Equiv.sum_comp (contrEquiv1 dd 4096 rfl rfl).symm]
  refine Finset.sum_congr rfl fun k _ => ?_
  have hk := contrEquiv1_symm_val dd 4096 rfl rfl k
  have el : dd.lhsIdx (ix2 p q) ((contrEquiv1 dd 4096 rfl rfl).symm k) = ix2 p k := funext fun a => Fin.ext (by
    match a with
    | ⟨0, _⟩ => exact lhs_row _ _
    | ⟨1, _⟩ => exact (lhs_col _ _).trans hk)
  have er : dd.rhsIdx (ix2 p q) ((contrEquiv1 dd 4096 rfl rfl).symm k) = ix2 k q := funext fun a => Fin.ext (by
    match a with
    | ⟨0, _⟩ => exact (rhs_row _ _).trans hk
    | ⟨1, _⟩ => exact rhs_col _ _)
  rw [el, er]

/-- THE BODY'S PAYLOAD AT AN INDEX: row `p` of the `x` block against column `q` of the dequantized weight block, plus the
    dequantized bias word of column `q`. -/
theorem pay_apply (x0 : Vec Ideal S256x4096 .f32) (x1 : Vec Ideal S4096x256 .i32) (x2 : Vec Ideal S1x256 .i32) (p q : Fin 256) :
    k0_pay1 (F := Ideal) x0 x1 x2 (ix2 p q)
      = (∑ k : Fin 4096, x0 (ix2 p k) * deq 0x3CA3D70A#32 (x1 (ix2 k q))) + deq 0x3C23D70A#32 (x2 (ix2 (0 : Fin 1) q)) := by
  unfold k0_pay1
  rw [addf_apply, matmul_at, broadcastTo_1b_ab_apply, shapeCast_self]
  rfl

/-- So, when row `p` of the `x` block is row `r` of an array `X`, column `q` of the weight block column `c` of an array
    `W`, and the bias word of column `q` the entry `c` of a vector `B`, the payload at `(p, q)` is the dequantized
    affine layer of `X`, `W`, `B` at `(r, c)`. -/
theorem pay_eq_qlinear (X : S8192x4096.Idx → EReal) (W : S4096x4096.Idx → BitVec 32) (B : S4096.Idx → BitVec 32)
    (x0 : Vec Ideal S256x4096 .f32) (x1 : Vec Ideal S4096x256 .i32) (x2 : Vec Ideal S1x256 .i32)
    (p q : Fin 256) (r : Fin 8192) (c : Fin 4096)
    (h0 : ∀ k : Fin 4096, x0 (ix2 p k) = X (ix2 r k))
    (h1 : ∀ k : Fin 4096, x1 (ix2 k q) = W (ix2 k c))
    (h2 : x2 (ix2 (0 : Fin 1) q) = B (ix1 c)) :
    k0_pay1 (F := Ideal) x0 x1 x2 (ix2 p q) = qlinear X W B (ix2 r c) := by
  rw [pay_apply, qlinear_ix2, h2]
  congr 1
  exact Finset.sum_congr rfl fun k _ => by rw [h0, h1]

end Cert.KernelIdeal.BodyValue

end
-- ==== Proof.ArrayValue.lean ====
/-
  From the blocks each grid point writes to the whole result array.

  The grid is 32 × 16: point `t` is at block row `t / 16` and block column `t % 16`. There it reads rows
  `256 (t / 16) …` of `x` (every column), columns `256 (t % 16) …` of the weight words (every row) and of the bias
  words — the latter through the one-row `[1, 4096]` copy of the bias vector that is made before the grid starts — and
  writes the `256 × 256` block `(t / 16, t % 16)` of the result. Entry `(p, q)` of that block therefore depends on row
  `256 (t / 16) + p` of `x` and column `256 (t % 16) + q` of the weights and the bias only, and by the body's value at
  an index it is the dequantized affine layer there. The blocks tile the `8192 × 4096` result (index `(r, c)` is in the
  block of point `16 (r / 256) + c / 256`), so the array ends as that one function of the three arguments.
-/
import proofs.«139779_j43430709297290_1_alg».proof.Proof.Gen.KernelIdeal.Value
import proofs.«139779_j43430709297290_1_alg».proof.Proof.BodyValue
import Idealize.ShloMosaic.Lib.Pipeline.Value
import Idealize.ShloMosaic.Lib.ValueLayout
import Idealize.ShloMosaic.Lib.StableHlo.Run

noncomputable section

open scoped BigOperators

namespace Cert.KernelIdeal.ArrayValue

open Cert.KernelIdeal Cert.KernelIdeal.Gen Cert.KernelIdeal.Value Cert.KernelIdeal.BodyValue Cert.Dequant
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at grid point `t`, on each axis: the output at `(t / 16, t % 16)`, the `x` rows with the
    output's block row, the weight and bias columns with the output's block column. -/
theorem block_index : ∀ t : Fin cfg0.N,
    win0_3.index t (0 : Fin 2) = t.val / 16 ∧ win0_3.index t (1 : Fin 2) = t.val % 16
    ∧ win0_0.index t (0 : Fin 2) = t.val / 16 ∧ win0_0.index t (1 : Fin 2) = 0
    ∧ win0_1.index t (0 : Fin 2) = 0 ∧ win0_1.index t (1 : Fin 2) = t.val % 16
    ∧ win0_2.index t (0 : Fin 2) = 0 ∧ win0_2.index t (1 : Fin 2) = t.val % 16 :=
  (by decide +kernel : ∀ t : Fin grid0.N, _)

/-- Row `p` of the `x` block at point `t` is row `256 (t / 16) + p` of the argument. -/
theorem x_block (c : Dev nD) (t : Fin cfg0.N) (p : Fin 256) (k : Fin 4096) (r : Fin 8192) (hr : r.val = t.val / 16 * 256 + p.val) :
    (iblk m c 0 t : Vec Ideal S256x4096 .f32) (ix2 p k) = (m ((c : Thread nD τ).loc main_arg0) : S8192x4096.Idx → EReal) (ix2 r k) := by
  obtain ⟨-, -, e0, e1, -⟩ := block_index t
  rw [← V_main_arg0 m c]
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 256 + 1 * p.val = r.val; rw [e0, hr]; omega
  | ⟨1, _⟩ => show win0_0.index t (1 : Fin 2) * 4096 + 1 * k.val = k.val; rw [e1]; omega

/-- Column `q` of the weight block at point `t` is column `256 (t % 16) + q` of the argument. -/
theorem w_block (c : Dev nD) (t : Fin cfg0.N) (k : Fin 4096) (q : Fin 256) (cc : Fin 4096) (hc : cc.val = t.val % 16 * 256 + q.val) :
    (iblk m c 1 t : Vec Ideal S4096x256 .i32) (ix2 k q) = (m ((c : Thread nD τ).loc main_arg1) : S4096x4096.Idx → BitVec 32) (ix2 k cc) := by
  obtain ⟨-, -, -, -, e0, e1, -⟩ := block_index t
  rw [← V_main_arg1 m c]
  show V m c main_arg1 (((cfg0.win 1).blk t).view.emb (ix2 k q)) = V m c main_arg1 (ix2 k cc)
  refine congrArg _ (funext fun a => Fin.ext ?_)
  match a with
  | ⟨0, _⟩ => show win0_1.index t (0 : Fin 2) * 4096 + 1 * k.val = k.val; rw [e0]; omega
  | ⟨1, _⟩ => show win0_1.index t (1 : Fin 2) * 256 + 1 * q.val = cc.val; rw [e1, hc]; omega

/-- The one-row array the bias window reads is the bias vector with a unit axis in front. -/
theorem bias_row (c : Dev nD) :
    (V m c main_v0 : S1x4096.Idx → BitVec 32) = shapeCast S1x4096 (m ((c : Thread nD τ).loc main_arg2)) shapeCasts_S4096_S1x4096 := by
  dsimp only [Gen.V, Gen.hostOps0]; after_results; rfl

/-- The bias word of column `q` at point `t` is entry `256 (t % 16) + q` of the bias vector. -/
theorem b_block (c : Dev nD) (t : Fin cfg0.N) (q : Fin 256) (cc : Fin 4096) (hc : cc.val = t.val % 16 * 256 + q.val) :
    (iblk m c 2 t : Vec Ideal S1x256 .i32) (ix2 (0 : Fin 1) q) = (m ((c : Thread nD τ).loc main_arg2) : S4096.Idx → BitVec 32) (ix1 cc) := by
  obtain ⟨-, -, -, -, -, -, e0, e1⟩ := block_index t
  have hemb : ((cfg0.win 2).blk t).view.emb (ix2 (0 : Fin 1) q) = (ix2 (0 : Fin 1) cc : S1x4096.Idx) := by
    refine funext fun a => Fin.ext ?_
    match a with
    | ⟨0, _⟩ => show win0_2.index t (0 : Fin 2) * 1 + 1 * 0 = 0; rw [e0]
    | ⟨1, _⟩ => show win0_2.index t (1 : Fin 2) * 256 + 1 * q.val = cc.val; rw [e1, hc]; omega
  show V m c main_v0 (((cfg0.win 2).blk t).view.emb (ix2 (0 : Fin 1) q)) = _
  rw [hemb, bias_row, shapeCast_a_1a_apply]

/-- WHAT POINT `t` WRITES BACK is block `t` of the dequantized affine layer of the three arguments. -/
theorem flushed_eq (c : Dev nD) (t : Fin cfg0.N) :
    (dats m 0 c).flushed 3 t = ((cfg0.win 3).blk t).view.read (Elt Ideal)
      (qlinear (m ((c : Thread nD τ).loc main_arg0)) (m ((c : Thread nD τ).loc main_arg1)) (m ((c : Thread nD τ).loc main_arg2))) := by
  rw [flushed3]
  show out0_3 (iblk m c 0 t) (iblk m c 1 t) (iblk m c 2 t) = _
  unfold out0_3
  rw [View.canon_unit_zero zero_offsets]
  simp only [View.ld_unit_zero (S := S256x4096) zero_offsets, View.ld_unit_zero (S := S4096x256) zero_offsets,
    View.ld_unit_zero (S := S1x256) zero_offsets]
  obtain ⟨e0, e1, -⟩ := block_index t
  have hN : t.val < 512 := Nat.lt_of_lt_of_eq t.isLt (show cfg0.N = 512 from N_0)
  funext j
  obtain ⟨p, q, rfl⟩ : ∃ (p q : Fin 256), j = ix2 p q := ⟨j 0, j 1, eq_ix2 j⟩
  have hemb : ((cfg0.win 3).blk t).view.emb (ix2 p q)
      = (ix2 (⟨t.val / 16 * 256 + p.val, by omega⟩ : Fin 8192) (⟨t.val % 16 * 256 + q.val, by omega⟩ : Fin 4096) : S8192x4096.Idx) := by
    refine funext fun a => Fin.ext ?_
    match a with
    | ⟨0, _⟩ => show win0_3.index t (0 : Fin 2) * 256 + 1 * p.val = t.val / 16 * 256 + p.val; rw [e0]; omega
    | ⟨1, _⟩ => show win0_3.index t (1 : Fin 2) * 256 + 1 * q.val = t.val % 16 * 256 + q.val; rw [e1]; omega
  refine (pay_eq_qlinear (m ((c : Thread nD τ).loc main_arg0)) (m ((c : Thread nD τ).loc main_arg1)) (m ((c : Thread nD τ).loc main_arg2))
    (iblk m c 0 t) (iblk m c 1 t) (iblk m c 2 t) p q ⟨t.val / 16 * 256 + p.val, by omega⟩ ⟨t.val % 16 * 256 + q.val, by omega⟩
    (fun k => x_block m c t p k _ rfl) (fun k => w_block m c t k q _ rfl) (b_block m c t q _ rfl)).trans ?_
  show _ = qlinear _ _ _ (((cfg0.win 3).blk t).view.emb (ix2 p q))
  rw [hemb]

/-- An index of the result is in point `t`'s block iff each coordinate is in the block's range on its axis. -/
theorem mem_block (t : Fin cfg0.N) (i : S8192x4096.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v1).slice (win0_3.rect t)).set ↔ _
  rw [View.set_slice_whole, Rect.mem_set_unit]
  exact Iff.rfl

/-- THE BLOCKS TILE THE RESULT: index `(r, c)` is in the block of point `16 (r / 256) + c / 256`. -/
theorem covered (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ : ∃ t : Fin cfg0.N, t.val = (i 0).val / 256 * 16 + (i 1).val / 256 :=
    ⟨⟨(i 0).val / 256 * 16 + (i 1).val / 256, by rw [show cfg0.N = 512 from N_0]; omega⟩, rfl⟩
  obtain ⟨e0, e1, -⟩ := block_index t
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; rw [e0, ht]; omega
  | ⟨1, _⟩ => show win0_3.index t (1 : Fin 2) * 256 ≤ (i 1).val ∧ (i 1).val < win0_3.index t (1 : Fin 2) * 256 + 256; rw [e1, ht]; omega

/-- THE RESULT ARRAY after the run is the dequantized affine layer of the three arguments. -/
theorem final (c : Dev nD) : (dats m 0 c).arrAt 3 cfg0.N
    = qlinear (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: the result at the dequantized affine layer of the arguments, the arguments unchanged. -/
theorem run : θ_run defs (onTc (τ := τ) (main (F := Ideal))) ⟨m, fun _ => 0, ρ⟩ fun r => ∀ c : Dev nD,
      r.2.mem ((c : Thread nD τ).loc main_v1)
        = qlinear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.lean ====
/-
  A quantized linear layer: `x` (8192 × 4096 reals) against weight words `w` (4096 × 4096) and bias words `b` (4096),
  each word standing for `(word - 128) * scale`.

  The kernel tiles the result into 256 × 256 blocks; for each it dequantizes a 4096 × 256 panel of the weights,
  multiplies a 256 × 4096 panel of `x` by it and adds the dequantized bias row. The reference dequantizes the whole
  weight matrix and the whole bias vector, forms one 8192 × 4096 × 4096 product and adds the bias along the rows. On the
  extended reals both are

      out[r, c] = (∑ k, x[r, k] * ((w[k, c] - 128) * s_w)) + (b[c] - 128) * s_b

  (`Cert.Dequant.qlinear`): the tiling only selects which rows and columns an entry reads, and the single difference
  in the arithmetic — the reference writes each dequantized number as `s * (word - 128)` — is the order of two factors.
  Commutativity of the product holds for every extended real, so the inputs' finiteness is never used.

  The kernel side is `ArrayValue.run` (the body's value at an index, then the blocks assembled into the array); the
  reference side is `RefValue.ref_eq` over the reference's run read one operation at a time. The kernel is its own
  idealization (no rewrite was applied), so that conjunct is `True`.
-/
import proofs.«139779_j43430709297290_1_alg».proof.Defs
import proofs.«139779_j43430709297290_1_alg».proof.Proof.Gen.Kernel
import proofs.«139779_j43430709297290_1_alg».proof.Proof.Gen.Kernel.Skeleton
import proofs.«139779_j43430709297290_1_alg».proof.Proof.Gen.Kernel.Launch
import proofs.«139779_j43430709297290_1_alg».proof.Proof.Gen.Kernel.Points
import proofs.«139779_j43430709297290_1_alg».proof.Proof.Gen.Kernel.Frame
import proofs.«139779_j43430709297290_1_alg».proof.Proof.Gen.KernelIdeal
import proofs.«139779_j43430709297290_1_alg».proof.Proof.Gen.KernelIdeal.Skeleton
import proofs.«139779_j43430709297290_1_alg».proof.Proof.Gen.KernelIdeal.Launch
import proofs.«139779_j43430709297290_1_alg».proof.Proof.Gen.KernelIdeal.Points
import proofs.«139779_j43430709297290_1_alg».proof.Proof.Gen.KernelIdeal.Frame
import proofs.«139779_j43430709297290_1_alg».proof.Proof.Gen.ReferenceIdeal
import proofs.«139779_j43430709297290_1_alg».proof.Proof.Gen.Pre_finite_inputs
import proofs.«139779_j43430709297290_1_alg».proof.Proof.Gen.KernelIdeal.Value
import proofs.«139779_j43430709297290_1_alg».proof.Proof.Gen.ReferenceIdeal.Run
import proofs.«139779_j43430709297290_1_alg».proof.Proof.Gen.ReferenceIdeal.Read
import proofs.«139779_j43430709297290_1_alg».proof.Proof.RefValue
import proofs.«139779_j43430709297290_1_alg».proof.Proof.ArrayValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the dequantized affine
    layer of those arguments. -/
theorem algebraic : Cert.algebraic_KernelIdeal_ReferenceIdeal := by
  intro m ρ m' ρ' _ hagree
  refine ⟨fun c => Cert.Dequant.qlinear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
